-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_T" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S65536x256 : Shape := ⟨2, ![65536, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_

variable [Facts]

def fn {F : FTy → Type} [FloatOps F] (main_arg0 : FVec F S1024x256 .f32) (main_arg1 : FVec F S65536x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S1024x256 : Shape := ⟨2, ![1024, 256]⟩
abbrev S65536x256 : Shape := ⟨2, ![65536, 256]⟩
abbrev S1024x65536 : Shape := ⟨2, ![1024, 65536]⟩
abbrev S4096x256 : Shape := ⟨2, ![4096, 256]⟩
abbrev S1024x4096 : Shape := ⟨2, ![1024, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S65536x256, .f32⟩
  | .hbm, ⟨2, _⟩ => ⟨S1024x65536, .f32⟩
  | .local _ .vmem, ⟨0, _⟩ => ⟨S1024x256, .f32⟩
  | .local _ .vmem, ⟨1, _⟩ => ⟨S4096x256, .f32⟩
  | .local _ .vmem, ⟨2, _⟩ => ⟨S4096x256, .f32⟩
  | .local _ .vmem, ⟨3, _⟩ => ⟨S1024x4096, .f32⟩
  | .local _ .vmem, ⟨4, _⟩ => ⟨S1024x4096, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1024x4096_S1024x4096_0_0 : ∀ a, (![0, 0] : Fin 2 → Nat) a + S1024x4096.size a ≤ S1024x4096.size a
  h_S1024x4096 : 0 < S1024x4096.numel
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x65536.size a
  hwx0_2 : ∀ i : grid0.Coords, EltTy.bits .f32 = 32 ∨ (Rect.block (s := S1024x65536) S1024x4096.size (cc0_transform_2 i) (hinb0_2 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x256 : Shape := ⟨2, ![1024, 256]⟩
abbrev S65536x256 : Shape := ⟨2, ![65536, 256]⟩
abbrev S256x65536 : Shape := ⟨2, ![256, 65536]⟩
abbrev S1024x65536 : Shape := ⟨2, ![1024, 65536]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S65536x256, .f32⟩
  | .hbm, ⟨2, _⟩ => ⟨S256x65536, .f32⟩
  | .hbm, ⟨3, _⟩ => ⟨S1024x65536, .f32⟩
  | .hbm, ⟨4, _⟩ => ⟨S_, .f32⟩
  | .hbm, ⟨5, _⟩ => ⟨S1024x65536, .f32⟩
  | .hbm, ⟨6, _⟩ => ⟨S1024x65536, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S65536x256_S256x65536_1_0 : S65536x256.Transposes [1, 0] S256x65536
  bcast_S_S1024x65536 : S_.BroadcastsInDim S1024x65536 (![] : Fin 0 → Fin S1024x65536.rank)
  dot_S1024x256_S256x65536_S1024x65536_1_0_0_1_n_n_wf : DotDims.WF S1024x256 S256x65536 S1024x65536 [1] [0] [0] [1] [] []

variable [Facts₀]

def dot_S1024x256_S256x65536_S1024x65536_1_0_0_1_n_n : DotDims S1024x256 S256x65536 S1024x65536 where
  lhsContracting := [1]
  rhsContracting := [0]
  lhsNonContracting := [0]
  rhsNonContracting := [1]
  lhsBatch := []
  rhsBatch := []
  wf := dot_S1024x256_S256x65536_S1024x65536_1_0_0_1_n_n_wf

class Facts : Prop extends Facts₀ where

variable [Facts]
-- ==== Proof.FiniteInputs.lean ====
/-
  What the precondition says of the two argument arrays: every entry of `x` and of `mem_feat` is a real number.

  The precondition is `all (|x| < +∞) ∧ all (|mem_feat| < +∞)`, and holds when its one-entry result is `1`. Each
  `all` is a reduction by `and` from `1`, so it is `1` only when every compared entry is; and `|v| < +∞` on the
  extended reals (`|v| = max v (-v)`) rules out both infinities, leaving a real.
-/
import proofs.«176980_g8942121910790_retrytranche1_691_18_alg».proof.Pre_finite_inputs
import Idealize.ShloMosaic.Lib.ReduceAll
import Idealize.ShloMosaic.PureOps.Ideal.Laws

noncomputable section

namespace Cert.Similarity

open Idealize.ShloMosaic Cert.Pre_finite_inputs

/-- The result of a reduction over all axes has one index. -/
instance subsingleton_scalar_idx : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value is below `+∞` is a real. -/
theorem real_of_abs_lt_top (v : EReal) (h : Ideal.cmp .olt (max v (-v)) (⊤ : EReal) = 1#1) : ∃ r : ℝ, v = (r : EReal) := by
  have hlt : max v (-v) < ⊤ := by
    by_contra hn
    simp [Ideal.cmp, hn] at h
  induction v using EReal.rec with
  | bot => simp at hlt
  | coe r => exact ⟨r, rfl⟩
  | top => simp at hlt

variable [Cert.Pre_finite_inputs.Facts]

/-- Under the precondition every entry of both argument arrays is a real. -/
theorem finite_of_pre (a0 : FVec Ideal S1024x256 .f32) (a1 : FVec Ideal S65536x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h (fun d => d.elim0)
  dsimp only [Cert.Pre_finite_inputs.fn] at h0
  obtain ⟨h1, h2⟩ := IntOp.andi_eq_one.1 h0
  refine ⟨fun i => ?_, fun i => ?_⟩
  · have e := Host.reduce_andi_all _ _ _ _ _ h1 i
    refine real_of_abs_lt_top _ ?_
    rw [← ofBits_inf]
    exact e
  · have e := Host.reduce_andi_all _ _ _ _ _ h2 i
    refine real_of_abs_lt_top _ ?_
    rw [← ofBits_inf]
    exact e

end Cert.Similarity

end
-- ==== Proof.RefValue.lean ====
/-
  The reference's result, entry by entry: at row `a` and column `b` it is the sum over the feature coordinate `c` of
  `x (a, c) · mem_feat (b, c)`, divided by the temperature. The transpose only swaps the coordinates at which
  `mem_feat` is read, and the host's matrix product is the sum of the products over the contracted coordinate.
-/
import proofs.«176980_g8942121910790_retrytranche1_691_18_alg».proof.Proof.Gen.ReferenceIdeal.Read
import Idealize.ShloMosaic.Lib.ValueIdx

open scoped BigOperators

noncomputable section

namespace Cert.Similarity

open Idealize.ShloMosaic Idealize.ShloMosaic.ValueIdx Cert.ReferenceIdeal Cert.ReferenceIdeal.Read

/-- The reference's result at `(a, b)`: the dot product of row `a` of `x` and row `b` of `mem_feat`, over the temperature. -/
theorem ref_apply (x0 : S1024x256.Idx → EReal) (x1 : S65536x256.Idx → EReal) (a : Fin 1024) (b : Fin 65536) :
    val_main_v3 (F := Ideal) x0 x1 (ix2 a b)
      = Ideal.div (∑ c : Fin 256, x0 (ix2 a c) * x1 (ix2 b c)) (Ideal.ofBits .f32 0x3D4CCCCD#32) := by
  have el : ∀ k : Fin 256, lidx_main_v1 (ix2 a b) k = ix2 a k := fun k =>
    funext fun d => Fin.ext (by match d with | ⟨0, _⟩ => rfl | ⟨1, _⟩ => rfl)
  have er : ∀ k : Fin 256, idx_main_v0 (ridx_main_v1 (ix2 a b) k) = ix2 b k := fun k =>
    funext fun d => Fin.ext (by match d with | ⟨0, _⟩ => rfl | ⟨1, _⟩ => rfl)
  rw [val_main_v3_apply, val_main_v1_apply, val_main_v2_apply, val_main_cst_apply]
  simp only [val_main_v0_apply, el, er, Ideal.hostDivf_def, Ideal.ofBits_def]

end Cert.Similarity

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.Payload.lean ====
/-
  What one grid step of the kernel computes, entry by entry.

  A step holds all of `x` ([1024, 256]) and one block of 4096 rows of `mem_feat` ([4096, 256]). It scales `x` by the
  reciprocal temperature, and multiplies rows by rows into a zero accumulator; the changes of float format are
  the identity on the extended reals. So the entry at row `p` and block column `q` is the sum over the feature
  coordinate `c` of `(x (p, c) · (1 / T)) · block (q, c)`.
-/
import proofs.«176980_g8942121910790_retrytranche1_691_18_alg».proof.Proof.Gen.KernelIdeal.Skeleton
import proofs.«176980_g8942121910790_retrytranche1_691_18_alg».proof.Proof.LibMatmulIdx
import Idealize.ShloMosaic.PureOps.IdealRules

open scoped BigOperators

noncomputable section

namespace Cert.Similarity

open Idealize.ShloMosaic Idealize.ShloMosaic.ValueIdx Cert.KernelIdeal Cert.KernelIdeal.Gen

/-- The kernel's named scale denotes `2^28 / 13421773`, by the certificate's table. -/
theorem named_inv_T :
    Named.named (F := Ideal) Cert.KernelIdeal.κ "inv_T" (φ := .f32) 0x41A00000#32 = ((268435456 / 13421773 : ℝ) : EReal) :=
  IdealRules.named_const.ideal_named_scalar _ _ _ _ rfl

/-- One step's stored value at `(p, q)`: the scaled row `p` of `x` against row `q` of the block. -/
theorem pay_apply (x0 : Vec Ideal S1024x256 .f32) (x1 : Vec Ideal S4096x256 .f32) (p : Fin 1024) (q : Fin 4096) :
    k0_pay1 (F := Ideal) x0 x1 (ix2 p q)
      = ∑ c : Fin 256, x0 (ix2 p c) * ((268435456 / 13421773 : ℝ) : EReal) * x1 (ix2 q c) := by
  unfold k0_pay1
  refine (Cert.LibMatmulIdx.matmul_rr_apply _ none _ _ p q).trans ?_
  refine Finset.sum_congr rfl fun c _ => ?_
  simp only [truncf, mulf, broadcast, Ideal.truncf_def, Ideal.mulf_def, named_inv_T]

end Cert.Similarity

end
-- ==== Proof.KernelValue.lean ====
/-
  The kernel's result array after the run, as one function of the two argument arrays.

  The grid has 16 steps. Step `t` reads all of `x` and rows `4096 t … 4096 t + 4095` of `mem_feat`, and writes columns
  `4096 t … 4096 t + 4095` of the result, all 1024 rows. So the entry it writes at row `p` and block column `q` is the
  whole-array function at row `p` and column `4096 t + q`: the sum over the feature coordinate of
  `(x (p, c) · (1 / T)) · mem_feat (4096 t + q, c)`. The 16 column blocks tile the result: column `b` lies in the
  block of step `b / 4096`.
-/
import proofs.«176980_g8942121910790_retrytranche1_691_18_alg».proof.Proof.Gen.KernelIdeal.Value
import proofs.«176980_g8942121910790_retrytranche1_691_18_alg».proof.Proof.Payload
import Idealize.ShloMosaic.Lib.Pipeline.Value

open scoped BigOperators

noncomputable section

namespace Cert.Similarity

open Idealize.ShloMosaic Idealize.ShloMosaic.TcCoe Idealize.SL.Sem Idealize.ShloMosaic.ValueIdx
open Idealize.ShloMosaic.Pipeline (Dat)
open Cert.KernelIdeal Cert.KernelIdeal.Gen

/-- The scaled similarity: entry `(a, b)` is the sum over `c` of `(x (a, c) · (1 / T)) · mem_feat (b, c)`. -/
def scaledSim (x : S1024x256.Idx → EReal) (mf : S65536x256.Idx → EReal) : S1024x65536.Idx → EReal :=
  fun i => ∑ c : Fin 256, x (ix2 (i 0) c) * ((268435456 / 13421773 : ℝ) : EReal) * mf (ix2 (i 1) c)

/-- One step's stored value at a block entry `y` is the scaled similarity at an array index `i`, once the rows the
    step holds are the rows of the arrays that `i` names. -/
theorem point_eq (x0 : Vec Ideal S1024x256 .f32) (x1 : Vec Ideal S4096x256 .f32)
    (X : S1024x256.Idx → EReal) (M : S65536x256.Idx → EReal) (p : Fin 1024) (q : Fin 4096) (i : S1024x65536.Idx)
    (h0 : ∀ c : Fin 256, x0 (ix2 p c) = X (ix2 (i 0) c))
    (h1 : ∀ c : Fin 256, x1 (ix2 q c) = M (ix2 (i 1) c)) :
    k0_pay1 (F := Ideal) x0 x1 (ix2 p q) = scaledSim X M i := by
  rw [pay_apply]
  exact Finset.sum_congr rfl fun c _ => by rw [h0, h1]

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the three windows at every step: `x` stays at block (0, 0), `mem_feat` moves down its rows
    and the result moves along its columns with the step. -/
theorem block_indices : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What step `t` writes back is block `t` of the scaled similarity of the argument arrays. -/
theorem flushed_eq (c : Dev nD) (t : Fin cfg0.N) :
    (dats m 0 c).flushed 2 t
      = ((cfg0.win 2).blk t).view.read (Elt Ideal) (scaledSim (V m c main_arg0) (V m c main_arg1)) := by
  rw [Cert.KernelIdeal.Value.flushed2]
  unfold out0_2
  rw [View.canon_unit_zero zero_offsets]
  simp only [View.ld_unit_zero (S := S1024x256) zero_offsets, View.ld_unit_zero (S := S4096x256) zero_offsets]
  obtain ⟨e00, e01, e10, e11, e20, e21⟩ := block_indices t
  funext j
  obtain ⟨p, q, rfl⟩ : ∃ (p : Fin 1024) (q : Fin 4096), j = ix2 p q := ⟨j 0, j 1, eq_ix2 j⟩
  show k0_pay1 (F := Ideal) (iblk m c 0 t) (iblk m c 1 t) (ix2 p q)
      = scaledSim (V m c main_arg0) (V m c main_arg1) (((cfg0.win 2).blk t).view.emb (ix2 p q))
  refine point_eq _ _ _ _ p q _ (fun k => ?_) (fun k => ?_)
  · show V m c main_arg0 (((cfg0.win 0).blk t).view.emb (ix2 p k)) = V m c main_arg0 _
    refine congrArg _ (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 256 + 1 * k.val = k.val; omega
  · show V m c main_arg1 (((cfg0.win 1).blk t).view.emb (ix2 q k)) = V m c main_arg1 _
    refine congrArg _ (funext fun a => Fin.ext ?_)
    match a with
    | ⟨0, _⟩ => show win0_1.index t (0 : Fin 2) * 4096 + 1 * q.val = win0_2.index t (1 : Fin 2) * 4096 + 1 * q.val; omega
    | ⟨1, _⟩ => show win0_1.index t (1 : Fin 2) * 256 + 1 * k.val = k.val; omega

/-- An index of the result is in step `t`'s block iff each coordinate is in the block's range on its axis. -/
theorem mem_blk (t : Fin cfg0.N) (i : S1024x65536.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_v0).slice (win0_2.rect t)).set ↔ _
  rw [View.set_slice_whole, Rect.mem_set_unit]
  exact Iff.rfl

/-- Every index of the result is in the block of the step its column falls in. -/
theorem covered (i : S1024x65536.Idx) :
    ∃ t : Fin cfg0.N, (cfg0.win 2).flush t = true ∧ i ∈ ((cfg0.win 2).blk t).view.set := by
  have hi0 : (i 0).val < 1024 := (i 0).isLt
  have hi1 : (i 1).val < 65536 := (i 1).isLt
  have hN : cfg0.N = 16 := N_0
  let t : Fin cfg0.N := ⟨(i 1).val / 4096, by rw [hN]; omega⟩
  obtain ⟨-, -, -, -, e20, e21⟩ := block_indices t
  have ht : t.val = (i 1).val / 4096 := rfl
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- The result array after the run is the scaled similarity of the argument arrays. -/
theorem final (c : Dev nD) :
    (dats m 0 c).arrAt 2 cfg0.N
      = scaledSim (m ((c : Thread nD τ).loc main_arg0)) (m ((c : Thread nD τ).loc main_arg1)) :=
  (dats m 0 c).arrAt_eq_of_cover 2 (scaledSim (V m c main_arg0) (V m c main_arg1))
    (fun t _ => flushed_eq m c t) covered

/-- The run, read: the result array ends at the scaled similarity of the arguments, the arguments unchanged. -/
theorem run : θ_run defs (onTc (τ := τ) (main (F := Ideal))) ⟨m, fun _ => 0, ρ⟩ fun r => ∀ c : Dev nD,
      r.2.mem ((c : Thread nD τ).loc main_v0)
        = scaledSim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Similarity

end
-- ==== Proof.ScaledDot.lean ====
/-
  The one algebraic law that joins the two programs, over an abstract finite index type; it mentions no program.

  For finite reals `x c`, `y c` and a real `d ≠ 0`, scaling every left factor by `1 / d` before the sum of products
  is dividing the sum of products by `d`:  `∑ (x c · (1/d)) · y c = (∑ x c · y c) / d`.
  On the extended reals this moves a factor across a sum, which is distributivity, so it needs the entries
  finite: every term is then the coercion of a real, and the law is the real one.
-/
import Idealize.ShloMosaic.PureOps.Ideal
import Mathlib.Algebra.BigOperators.Group.Finset.Basic
import Mathlib.Data.EReal.Basic

open scoped BigOperators

noncomputable section

namespace Cert.Similarity

open Idealize.ShloMosaic

/-- The coercion of the reals into the extended reals carries a finite sum to the sum of the coercions. -/
theorem coe_sum {ι : Type} (S : Finset ι) (f : ι → ℝ) :
    ((∑ c ∈ S, f c : ℝ) : EReal) = ∑ c ∈ S, ((f c : ℝ) : EReal) := by
  classical
  induction S using Finset.induction_on with
  | empty => simp
  | insert a S ha ih => rw [Finset.sum_insert ha, Finset.sum_insert ha, EReal.coe_add, ih]

/-- The law on real entries. -/
theorem scaled_dot_real {ι : Type} [Fintype ι] (x y : ι → ℝ) {d : ℝ} (hd : d ≠ 0) :
    (∑ c, ((x c : ℝ) : EReal) * ((1 / d : ℝ) : EReal) * ((y c : ℝ) : EReal))
      = Ideal.div (∑ c, ((x c : ℝ) : EReal) * ((y c : ℝ) : EReal)) ((d : ℝ) : EReal) := by
  rw [Ideal.div_coe hd]
  simp only [← EReal.coe_mul]
  rw [← coe_sum, ← coe_sum, ← EReal.coe_mul, Finset.sum_mul]
  exact congrArg _ (Finset.sum_congr rfl fun c _ => by ring)

/-- The law on extended-real entries that are all finite. -/
theorem scaled_dot {ι : Type} [Fintype ι] (x y : ι → EReal) (hx : ∀ c, ∃ r : ℝ, x c = (r : EReal))
    (hy : ∀ c, ∃ r : ℝ, y c = (r : EReal)) {d : ℝ} (hd : d ≠ 0) :
    (∑ c, x c * ((1 / d : ℝ) : EReal) * y c) = Ideal.div (∑ c, x c * y c) ((d : ℝ) : EReal) := by
  choose xr hxr using hx
  choose yr hyr using hy
  simp only [hxr, hyr]
  exact scaled_dot_real xr yr hd

end Cert.Similarity

end
-- ==== Proof.Temperature.lean ====
/-
  The two scale constants of the similarity, as the extended reals they denote.

  The reference divides the similarity by the temperature `T`, whose single-precision word `0x3D4CCCCD` is the
  binary fraction `13421773 / 2^28` (the nearest single to `0.05`). The kernel multiplies by the reciprocal it
  folded; its table gives that constant the exact value `1 / T = 2^28 / 13421773`.
-/
import Idealize.ShloMosaic.PureOps.Ideal

noncomputable section

namespace Cert.Similarity

open Idealize.ShloMosaic

/-- The temperature's word denotes `13421773 / 2^28`. -/
theorem ofBits_T : Ideal.ofBits .f32 0x3D4CCCCD#32 = ((13421773 / 268435456 : ℝ) : EReal) := by
  simp [Ideal.ofBits, Ideal.ieee, -EReal.coe_mul]; norm_num

/-- The temperature is not zero. -/
theorem T_ne_zero : (13421773 / 268435456 : ℝ) ≠ 0 := by norm_num

/-- The kernel's scale is the temperature's reciprocal. -/
theorem inv_T : (268435456 / 13421773 : ℝ) = 1 / (13421773 / 268435456 : ℝ) := by norm_num

end Cert.Similarity

end
-- ==== Proof.Bridge.lean ====
/-
  The two programs compute one function of finite arguments.

  The reference's entry at `(a, b)` is `(∑ x (a, c) · mem_feat (b, c)) / T`; the kernel's is
  `∑ (x (a, c) · (1 / T)) · mem_feat (b, c)`. For real entries the two agree: the constant factor `1 / T` moves out
  of the sum, and dividing by the nonzero real `T` is multiplying by `1 / T`.
-/
import proofs.«176980_g8942121910790_retrytranche1_691_18_alg».proof.Proof.RefValue
import proofs.«176980_g8942121910790_retrytranche1_691_18_alg».proof.Proof.KernelValue
import proofs.«176980_g8942121910790_retrytranche1_691_18_alg».proof.Proof.ScaledDot
import proofs.«176980_g8942121910790_retrytranche1_691_18_alg».proof.Proof.Temperature

open scoped BigOperators

noncomputable section

namespace Cert.Similarity

open Idealize.ShloMosaic Idealize.ShloMosaic.ValueIdx

/-- On arrays of reals, the reference's result is the scaled similarity. -/
theorem ref_eq_sim (X : Cert.ReferenceIdeal.S1024x256.Idx → EReal) (M : Cert.ReferenceIdeal.S65536x256.Idx → EReal)
    (hX : ∀ i, ∃ r : ℝ, X i = (r : EReal)) (hM : ∀ i, ∃ r : ℝ, M i = (r : EReal)) :
    Cert.ReferenceIdeal.Read.val_main_v3 (F := Ideal) X M = scaledSim X M := by
  funext i
  obtain ⟨a, b, rfl⟩ : ∃ (a : Fin 1024) (b : Fin 65536), i = ix2 a b := ⟨i 0, i 1, eq_ix2 i⟩
  rw [ref_apply, ofBits_T]
  show _ = ∑ c : Fin 256, X (ix2 a c) * ((268435456 / 13421773 : ℝ) : EReal) * M (ix2 b c)
  rw [inv_T]
  exact (scaled_dot (fun c => X (ix2 a c)) (fun c => M (ix2 b c)) (fun c => hX _) (fun c => hM _) T_ne_zero).symm

end Cert.Similarity

end
-- ==== Proof.lean ====
/-
  The scaled similarity of a batch of queries against a memory queue: `out = (x · mem_featᵀ) / T`, with `x` of
  1024 rows, `mem_feat` of 65536 rows, 256 features each, and the temperature `T` the single nearest `0.05`.

  The kernel walks the queue in 16 blocks of 4096 rows; in each it scales `x` by the folded reciprocal `1 / T`
  and multiplies rows by rows, writing one block of 4096 columns of the result. The reference transposes
  `mem_feat`, takes one matrix product and divides by `T`. Over the extended reals the changes of float format are
  the identity, both products are sums over the feature coordinate, and for finite inputs
  `∑ (x · (1/T)) · m = (∑ x · m) / T`: the constant factor leaves the sum (which needs the entries finite), and
  dividing by a nonzero real is multiplying by its reciprocal. The kernel's scale constant is read as the exact
  `1 / T` by the certificate's table; that reading is the one conjunct of the idealization claim.
-/
import proofs.«176980_g8942121910790_retrytranche1_691_18_alg».proof.Defs
import proofs.«176980_g8942121910790_retrytranche1_691_18_alg».proof.Proof.Gen.Kernel
import proofs.«176980_g8942121910790_retrytranche1_691_18_alg».proof.Proof.Gen.Kernel.Skeleton
import proofs.«176980_g8942121910790_retrytranche1_691_18_alg».proof.Proof.Gen.Kernel.Launch
import proofs.«176980_g8942121910790_retrytranche1_691_18_alg».proof.Proof.Gen.Kernel.Points
import proofs.«176980_g8942121910790_retrytranche1_691_18_alg».proof.Proof.Gen.Kernel.Frame
import proofs.«176980_g8942121910790_retrytranche1_691_18_alg».proof.Proof.Gen.KernelIdeal
import proofs.«176980_g8942121910790_retrytranche1_691_18_alg».proof.Proof.Gen.KernelIdeal.Skeleton
import proofs.«176980_g8942121910790_retrytranche1_691_18_alg».proof.Proof.Gen.KernelIdeal.Launch
import proofs.«176980_g8942121910790_retrytranche1_691_18_alg».proof.Proof.Gen.KernelIdeal.Points
import proofs.«176980_g8942121910790_retrytranche1_691_18_alg».proof.Proof.Gen.KernelIdeal.Frame
import proofs.«176980_g8942121910790_retrytranche1_691_18_alg».proof.Proof.Gen.ReferenceIdeal
import proofs.«176980_g8942121910790_retrytranche1_691_18_alg».proof.Proof.Gen.Pre_finite_inputs
import proofs.«176980_g8942121910790_retrytranche1_691_18_alg».proof.Proof.Gen.KernelIdeal.Value
import proofs.«176980_g8942121910790_retrytranche1_691_18_alg».proof.Proof.Gen.ReferenceIdeal.Run
import proofs.«176980_g8942121910790_retrytranche1_691_18_alg».proof.Proof.Gen.ReferenceIdeal.Read
import proofs.«176980_g8942121910790_retrytranche1_691_18_alg».proof.Proof.FiniteInputs
import proofs.«176980_g8942121910790_retrytranche1_691_18_alg».proof.Proof.Bridge
import Idealize.ShloMosaic.Adequacy
import Idealize.ShloMosaic.Init

noncomputable section

namespace Cert.Proof

open Idealize.ShloMosaic Idealize.SL.Sem Cert.Kernel

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The table gives the kernel's scale constant the value `1 / T = 2^28 / 13421773`. -/
theorem preserves : Cert.preserves_Kernel_KernelIdeal :=
  IdealRules.named_const.statement Cert.KernelIdeal.κ "inv_T" .f32 0x41A00000#32 ((268435456 / 13421773 : ℝ) : EReal) rfl

/-- From arguments that agree and are finite, the kernel's result array ends at the scaled similarity, and the
    reference's at the similarity over `T`: one function of real entries. -/
theorem algebraic : Cert.algebraic_KernelIdeal_ReferenceIdeal := by
  intro m ρ m' ρ' hpre hagree
  refine ⟨_, Cert.Similarity.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq]
  obtain ⟨hx, hm⟩ := Cert.Similarity.finite_of_pre _ _ (hpre c)
  exact Cert.Similarity.ref_eq_sim _ _ hx hm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, preserves, algebraic⟩

end Cert.Proof

end
